-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩

abbrev nBuf : Space → Nat
  | .hbm => 67
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x1, .f32⟩
  | .local _ .vmem, ⟨23, _⟩ => ⟨S4000x1, .f32⟩
  | .local _ .vmem, ⟨24, _⟩ => ⟨S128x128, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .i1⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  A two-layer graph convolution with degree normalisation on both sides, written once as whole-array functions.

  Every node gets a self-loop (`withLoops`), its out- and in-degree are counted by scattering ones over the edge
  endpoints, floored at one and raised to the power -1/2 (`degScale`, kept as a column). One aggregation
  (`aggregate`) gathers the rows of the source endpoints and adds each into the row of its destination endpoint.
  Between aggregations three row-wise layers act on the node features:
    * `scaleRows x n`                       : row r of x times n(r);
    * `hiddenLayer m nd ns W b γ β μ σ²`    : row r of m times nd(r), times W, plus b; normalised with the running
                                              statistics ((· − μ)·(σ² + ε)^(−1/2)·γ + β); a leaky rectifier
                                              (y if y > 0 else slope·y); times ns(r);
    * `outputLayer m nd W b`                : row r of m times nd(r), times W, plus b.
  `forwardSpec` composes them: output (aggregate (hidden (aggregate (scale x)))).
-/
import proofs.«148521_j38173669327120_1_alg».proof.Proof.Gen.ReferenceIdeal

noncomputable section

namespace Cert.Spec

open Cert.ReferenceIdeal Cert.ReferenceIdeal.Gen Idealize.ShloMosaic

variable {F : FTy → Type} [FloatOps F]

/-- A float array of shape `s`. -/
abbrev FArr (F : FTy → Type) [FloatOps F] (s : Shape) := (⟨s, .f32⟩ : BufTy).Contents (Elt F)
/-- A 32-bit integer array of shape `s`. -/
abbrev IArr (F : FTy → Type) [FloatOps F] (s : Shape) := (⟨s, .i32⟩ : BufTy).Contents (Elt F)

/-- The edge endpoints with one self-loop per node appended: positions 1600000 … 1699999 hold 0 … 99999. -/
def withLoops (e : IArr F S1600000) : IArr F S1700000 :=
  concatenate S1700000 0 [⟨S1600000, e⟩, ⟨S100000, (iotaInDim S100000 32 0)⟩] concatenates_S1600000_S100000_S1700000_d0

/-- deg(n)^(-1/2) as a column, where deg(n) = max(number of listed endpoints equal to n, 1). -/
def degScaleOf (s : IArr F S1700000) : FArr F S100000x1 :=
  broadcastInDim S100000x1 ![0] bcast_S100000_S100000x1_0
    (Host.powf
      (maximumf
        (Host.scatterAdd scatter_S100000_S1700000x1_S1700000_n_0_0_1
          (broadcastInDim S100000 ![] bcast_S_S100000 (constant S_ .f32 0x00000000#32))
          (broadcastInDim S1700000x1 ![0] bcast_S1700000_S1700000x1_0 s)
          (broadcastInDim S1700000 ![] bcast_S_S1700000 (constant S_ .f32 0x3F800000#32)))
        (broadcastInDim S100000 ![] bcast_S_S100000 (constant S_ .f32 0x3F800000#32)))
      (broadcastInDim S100000 ![] bcast_S_S100000 (constant S_ .f32 0xBF000000#32)))

/-- The degree scale of an endpoint list, self-loops included. -/
def degScale (e : IArr F S1600000) : FArr F S100000x1 := degScaleOf (withLoops e)

/-- One aggregation over looped endpoint lists `s` (sources) and `d` (destinations): row `s e` of `h` (a negative
    entry counted from the end) is added into row `d e` of a zero array, for every edge `e`. -/
def aggregateOf (s d : IArr F S1700000) (h : FArr F S100000x128) : FArr F S100000x128 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (Host.gather gather_S100000x128_S1700000x1_S1700000x128_1_0_n_n_0_1_1128 h
      (broadcastInDim S1700000x1 ![0] bcast_S1700000_S1700000x1_0
        (select (cmpi .slt s (broadcastInDim S1700000 ![] bcast_S_S1700000 (constantI S_ 32 0#32)))
          (addi s (broadcastInDim S1700000 ![] bcast_S_S1700000 (constantI S_ 32 100000#32)))
          s)))

/-- One aggregation over the edge lists as given. -/
def aggregate (src dst : IArr F S1600000) (h : FArr F S100000x128) : FArr F S100000x128 :=
  aggregateOf (withLoops src) (withLoops dst) h

/-- A per-node column laid against the 128 features of its row. -/
def alongRows (n : FArr F S100000x1) : FArr F S100000x128 :=
  broadcastInDim S100000x128 ![0, 1] bcast_S100000x1_S100000x128_0_1 n

/-- A per-feature vector laid against every node's row. -/
def alongCols (v : FArr F S128) : FArr F S100000x128 :=
  broadcastInDim S100000x128 ![0, 1] bcast_S1x128_S100000x128_0_1 (broadcastInDim S1x128 ![1] bcast_S128_S1x128_1 v)

/-- Row r of x times n(r). -/
def scaleRows (x : FArr F S100000x128) (n : FArr F S100000x1) : FArr F S100000x128 :=
  mulf x (alongRows n)

/-- (m scaled by nd) · W + b. -/
def linear (m : FArr F S100000x128) (nd : FArr F S100000x1) (W : FArr F S128x128) (b : FArr F S128) : FArr F S100000x128 :=
  addf (Host.dotGeneral dot_S100000x128_S128x128_S100000x128_1_0_0_1_n_n none (mulf m (alongRows nd)) W) (alongCols b)

/-- (z − μ) · (σ² + ε)^(-1/2) · γ + β, feature by feature. -/
def normalize (z : FArr F S100000x128) (γ β μ σ2 : FArr F S128) : FArr F S100000x128 :=
  addf (mulf (mulf (subf z (alongCols μ))
      (alongCols (Host.rsqrt (addf σ2 (broadcastInDim S128 ![] bcast_S_S128 (constant S_ .f32 0x3727C5AC#32))))))
    (alongCols γ)) (alongCols β)

/-- y where y > 0, slope · y elsewhere. -/
def leaky (y : FArr F S100000x128) : FArr F S100000x128 :=
  select (cmpf .ogt y (broadcastInDim S100000x128 ![] bcast_S_S100000x128 (constant S_ .f32 0x00000000#32))) y
    (mulf (broadcastInDim S100000x128 ![] bcast_S_S100000x128 (constant S_ .f32 0x3C23D70A#32)) y)

/-- The hidden layer, already scaled by the source-side degree factor for the next aggregation. -/
def hiddenLayer (m : FArr F S100000x128) (nd ns : FArr F S100000x1) (W : FArr F S128x128) (b γ β μ σ2 : FArr F S128) :
    FArr F S100000x128 :=
  mulf (leaky (normalize (linear m nd W b) γ β μ σ2)) (alongRows ns)

/-- The output layer. -/
def outputLayer (m : FArr F S100000x128) (nd : FArr F S100000x1) (W : FArr F S128x128) (b : FArr F S128) : FArr F S100000x128 :=
  linear m nd W b

/-- The whole forward pass as one function of the eleven inputs. -/
def forwardSpec (x : FArr F S100000x128) (src dst : IArr F S1600000) (W1 : FArr F S128x128) (b1 : FArr F S128)
    (W2 : FArr F S128x128) (b2 γ β μ σ2 : FArr F S128) : FArr F S100000x128 :=
  outputLayer
    (aggregate src dst
      (hiddenLayer (aggregate src dst (scaleRows x (degScale src))) (degScale dst) (degScale src) W1 b1 γ β μ σ2))
    (degScale dst) W2 b2

end Cert.Spec

end
-- ==== Proof.RefSide.lean ====
/-
  The reference program's result is the forward pass `Cert.Spec.forwardSpec` of its eleven inputs: its operations,
  composed, are the specification's functions with their definitions opened, term for term.
-/
import proofs.«148521_j38173669327120_1_alg».proof.Proof.Gen.ReferenceIdeal.Run
import proofs.«148521_j38173669327120_1_alg».proof.Proof.Spec

noncomputable section

namespace Cert.RefSide

open Cert.ReferenceIdeal Cert.ReferenceIdeal.Gen Idealize.ShloMosaic Idealize.ShloMosaic.TcCoe Idealize.SL.Sem

variable {F : FTy → Type} [FloatOps F]

set_option maxRecDepth 8192 in
/-- The composed term of the reference's run is the specification at the launch contents of the arguments. -/
theorem result_eq (m : (ℓ : Loc nD τ sig) → Buf (Elt F) ℓ) (c : Dev nD) :
    Cert.ReferenceIdeal.Value.res_main_v75 m c
      = Cert.Spec.forwardSpec (F := F)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v75
  rfl

end Cert.RefSide

end
-- ==== Proof.KernelRun.lean ====
/-
  The kernel's run with its result named.

  From any launch memory with zero counters, every weakly fair execution of the kernel's program on the TensorCores
  terminates without fault, and in every final state the result buffer (the output array of the third region) holds
  what the last segment boundary's contents say it holds, while the eleven argument arrays are as launched. The last
  boundary's contents are a fold through the program's six segments (three stretches of host operations, three
  regions); what that fold is at the result buffer, as a function of the arguments, is the subject of the next module.
-/
import proofs.«148521_j38173669327120_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates; the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Whole

end
-- ==== Proof.HostReads.lean ====
/-
  The three stretches of host operations, each read as a function of the contents it starts from.

  Between the regions the program runs plain array operations. Whatever the buffers hold when a stretch starts (`W`),
    * the first stretch leaves, in four of the buffers it writes, the endpoint lists with a self-loop per node
      appended (`withLoops` of the two edge arguments) and the two degree factors (`degScale` of them);
    * the second and the third stretch each leave one aggregation (`aggregateOf`) of a feature array over the two
      looped endpoint lists, in the last buffer they write;
    * a buffer that no operation of a stretch writes holds afterwards what it held before.
  The operations are spelled as in the specification, so each reading ends by unfolding the specification's names.
-/
import proofs.«148521_j38173669327120_1_alg».proof.Proof.Gen.KernelIdeal.Frame
import proofs.«148521_j38173669327120_1_alg».proof.Proof.Spec
import Idealize.ShloMosaic.PureOps.Ideal.Laws

set_option maxRecDepth 16384

noncomputable section

open Idealize.ShloMosaic Idealize.ShloMosaic.TcCoe Idealize.SL.Sem

namespace Cert.KernelIdeal.Whole

open Cert.KernelIdeal Cert.KernelIdeal.Gen

/-- A single buffer lies in the set of a list's buffers as soon as its reference is in the list. -/
theorem single_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

variable (W : Valuation τ sig (Elt Ideal))

/-! ## The first stretch: self-loops and degree factors -/

/-- The source endpoints with the self-loops appended. -/
theorem hostOps0_v1 :
    StableHlo.after (hostOps0 (F := Ideal)) W (Proc.devRef .tc main_v1)
      = Cert.Spec.withLoops (F := Ideal) (W (Proc.devRef .tc main_arg1)) := by
  after_results
  rfl

/-- The destination endpoints with the self-loops appended. -/
theorem hostOps0_v2 :
    StableHlo.after (hostOps0 (F := Ideal)) W (Proc.devRef .tc main_v2)
      = Cert.Spec.withLoops (F := Ideal) (W (Proc.devRef .tc main_arg2)) := by
  after_results
  rfl

/-- The source-side degree factor. -/
theorem hostOps0_v16 :
    StableHlo.after (hostOps0 (F := Ideal)) W (Proc.devRef .tc main_v16)
      = Cert.Spec.degScale (F := Ideal) (W (Proc.devRef .tc main_arg1)) := by
  after_results
  rfl

/-- The destination-side degree factor. -/
theorem hostOps0_v19 :
    StableHlo.after (hostOps0 (F := Ideal)) W (Proc.devRef .tc main_v19)
      = Cert.Spec.degScale (F := Ideal) (W (Proc.devRef .tc main_arg2)) := by
  after_results
  rfl

/-- A buffer that no operation of the first stretch writes keeps its contents through it. -/
theorem keep0 (b : Ref sig .tc)
    (hb : b ∉ ([main_v0, main_v1, main_v2, main_cst, main_v3, main_cst_0, main_v4, main_v5, main_v6, main_cst_1, main_v7, main_v8, main_cst_2, main_v9, main_v10, main_v11, main_cst_3, main_v12, main_v13, main_cst_4, main_v14, main_v15, main_v16, main_cst_5, main_v17, main_v18, main_v19] : List (Ref sig .tc))) :
    StableHlo.after (hostOps0 (F := Ideal)) W (Proc.devRef .tc b) = W (Proc.devRef .tc b) :=
  StableHlo.after_of_writes_sub _ W (by
    simp only [hostOps0, List.Forall, StableHlo.nullary_writes, StableHlo.unary_writes, StableHlo.binary_writes,
      StableHlo.ternary_writes]
    repeat' apply And.intro
    all_goals exact single_sub_of_mem (by decide)) hb

/-! ## The second stretch: the first aggregation -/

/-- The aggregation of the scaled features. -/
theorem hostOps1_v30 :
    StableHlo.after (hostOps1 (F := Ideal)) W (Proc.devRef .tc main_v30)
      = Cert.Spec.aggregateOf (F := Ideal) (W (Proc.devRef .tc main_v1)) (W (Proc.devRef .tc main_v2))
          (W (Proc.devRef .tc main_v20)) := by
  after_results
  rfl

/-- A buffer that no operation of the second stretch writes keeps its contents through it. -/
theorem keep1 (b : Ref sig .tc)
    (hb : b ∉ ([main_c, main_v21, main_v22, main_c_6, main_v23, main_v24, main_v25, main_v26, main_v27, main_cst_7, main_v28, main_v29, main_v30] : List (Ref sig .tc))) :
    StableHlo.after (hostOps1 (F := Ideal)) W (Proc.devRef .tc b) = W (Proc.devRef .tc b) :=
  StableHlo.after_of_writes_sub _ W (by
    simp only [hostOps1, List.Forall, StableHlo.nullary_writes, StableHlo.unary_writes, StableHlo.binary_writes,
      StableHlo.ternary_writes]
    repeat' apply And.intro
    all_goals exact single_sub_of_mem (by decide)) hb

/-! ## The third stretch: the second aggregation -/

/-- The aggregation of the hidden features. -/
theorem hostOps2_v41 :
    StableHlo.after (hostOps2 (F := Ideal)) W (Proc.devRef .tc main_v41)
      = Cert.Spec.aggregateOf (F := Ideal) (W (Proc.devRef .tc main_v1)) (W (Proc.devRef .tc main_v2))
          (W (Proc.devRef .tc main_v31)) := by
  after_results
  rfl

/-- A buffer that no operation of the third stretch writes keeps its contents through it. -/
theorem keep2 (b : Ref sig .tc)
    (hb : b ∉ ([main_c_8, main_v32, main_v33, main_c_9, main_v34, main_v35, main_v36, main_v37, main_v38, main_cst_10, main_v39, main_v40, main_v41] : List (Ref sig .tc))) :
    StableHlo.after (hostOps2 (F := Ideal)) W (Proc.devRef .tc b) = W (Proc.devRef .tc b) :=
  StableHlo.after_of_writes_sub _ W (by
    simp only [hostOps2, List.Forall, StableHlo.nullary_writes, StableHlo.unary_writes, StableHlo.binary_writes,
      StableHlo.ternary_writes]
    repeat' apply And.intro
    all_goals exact single_sub_of_mem (by decide)) hb

end Cert.KernelIdeal.Whole

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.Region0.lean ====
/-
  The first region: every row of the node features times that node's source-side degree factor.

  The grid has 25 points; point t works on rows 4000·t … 4000·t + 3999. Its feature block is those rows of the
  feature array, its factor block the same rows of the factor column, and it writes back, at (p, q) of its block,
  x(4000·t + p, q) · n(4000·t + p). The 25 blocks tile the 100000 rows, so the array the region leaves is
  `Cert.Spec.scaleRows` of the two arrays it found — whatever those were (`V` is the contents at the region's entry).
-/
import proofs.«148521_j38173669327120_1_alg».proof.Proof.Gen.KernelIdeal.Frame
import proofs.«148521_j38173669327120_1_alg».proof.Proof.Spec
import proofs.«148521_j38173669327120_1_alg».proof.Proof.LibColumns
import proofs.«148521_j38173669327120_1_alg».proof.Proof.LibHostColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- Row p of block t is row 4000·t + p of the array. -/
def rowOf (t : ℕ) (ht : t < 25) (p : Fin 4000) : Fin 100000 := ⟨4000 * t + p.val, by have := p.isLt; omega⟩

/-- The whole-array function at row 4000·t + p, column q. -/
theorem scaleRows_apply (X : Cert.Spec.FArr Ideal Cert.ReferenceIdeal.S100000x128) (N : Cert.Spec.FArr Ideal Cert.ReferenceIdeal.S100000x1)
    (r : Fin 100000) (q : Fin 128) :
    Cert.Spec.scaleRows X N (ix2 r q) = X (ix2 r q) * N (ix2 r (0 : Fin 1)) := by
  unfold Cert.Spec.scaleRows Cert.Spec.alongRows
  rw [mulf_apply, broadcastInDim_a1_ab_apply]

/-- What a point stores at (p, q): its feature block there times its factor block at (p, 0). -/
theorem pay0_apply (x0 : Vec Ideal S4000x128 .f32) (x1 : Vec Ideal S4000x1 .f32) (p : Fin 4000) (q : Fin 128) :
    k0_pay1 x0 x1 (ix2 p q) = x0 (ix2 p q) * x1 (ix2 p (0 : Fin 1)) := by
  unfold k0_pay1
  rw [mulf_apply, broadcastTo_a1_ab_apply, shapeCast_self, shapeCast_self]

/-- The grid's index maps: every window of this region moves down one block of rows per point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature block of point t, at (p, q), is the feature array at row 4000·t + p, column q. -/
theorem iblk0_0_apply (c : Dev nD) (t : Fin cfg0.N) (ht : t.val < 25) (p : Fin 4000) (q : Fin 128) :
    (iblk0 V c 0 t : Vec Ideal S4000x128 .f32) (ix2 p q)
      = (V c main_arg0 : S100000x128.Idx → Elt Ideal .f32) (ix2 (rowOf t.val ht p) q) := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t 0 * 4000 + 1 * p.val = 4000 * t.val + p.val; rw [e0]; omega
  | ⟨1, _⟩ => show win0_0.index t 1 * 128 + 1 * q.val = q.val; rw [e1]; omega

/-- The factor block of point t, at (p, 0), is the factor column at row 4000·t + p. -/
theorem iblk0_1_apply (c : Dev nD) (t : Fin cfg0.N) (ht : t.val < 25) (p : Fin 4000) (u : Fin 1) :
    (iblk0 V c 1 t : Vec Ideal S4000x1 .f32) (ix2 p u)
      = (V c main_v16 : S100000x1.Idx → Elt Ideal .f32) (ix2 (rowOf t.val ht p) u) := by
  obtain ⟨-, -, e0, e1, -⟩ := idx_facts0 t
  unfold iblk0
  rw [View.read_apply]
  show V c main_v16 _ = V c main_v16 _
  refine congrArg (V c main_v16) ?_
  funext a
  apply Fin.ext
  match a with
  | ⟨0, _⟩ => show win0_1.index t 0 * 4000 + 1 * p.val = 4000 * t.val + p.val; rw [e0]; omega
  | ⟨1, _⟩ => show win0_1.index t 1 * 1 + 1 * u.val = u.val; rw [e1]; omega

/-- The output block of point t sits at rows 4000·t … of the output array. -/
theorem emb0_2 (t : Fin cfg0.N) (ht : t.val < 25) (p : Fin 4000) (q : Fin 128) :
    ((cfg0.win 2).blk t).view.emb (ix2 p q) = ix2 (rowOf t.val ht p) q := by
  obtain ⟨-, -, -, -, e0, e1⟩ := idx_facts0 t
  funext a
  apply Fin.ext
  match a with
  | ⟨0, _⟩ => show win0_2.index t 0 * 4000 + 1 * p.val = 4000 * t.val + p.val; rw [e0]; omega
  | ⟨1, _⟩ => show win0_2.index t 1 * 128 + 1 * q.val = q.val; rw [e1]; omega

/-- What point t writes back is block t of `scaleRows` of the two arrays as the region finds them. -/
theorem flushed0 (c : Dev nD) (t : Fin cfg0.N) :
    (dat0 V c).flushed 2 t
      = ((cfg0.win 2).blk t).view.read (Elt Ideal) (Cert.Spec.scaleRows (F := Ideal) (V c main_arg0) (V c main_v16)) := by
  have ht : t.val < 25 := Nat.lt_of_lt_of_eq t.isLt N_0
  show (cfg0.win 2).cut (grid0.coords t) ((dat0 V c).after 2 t) = _
  rw [after0_2]
  unfold out0_2
  rw [View.canon_unit_zero hz2]
  simp only [View.ld_unit_zero (S := S4000x128) hz2, View.ld_unit_zero (S := S4000x1) hz2]
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = Cert.Spec.scaleRows (F := Ideal) (V c main_arg0) (V c main_v16) (((cfg0.win 2).blk t).view.emb (ix2 p q))
  rw [emb0_2 t ht p q, scaleRows_apply, pay0_apply, iblk0_0_apply V c t ht p q, iblk0_1_apply V c t ht p 0]

/-- An index of the output array is in point t's block iff each coordinate is in the block's range. -/
theorem mem_blk0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v20).slice (win0_2.rect t)).set ↔ _
  rw [View.set_slice_whole, Rect.mem_set_unit]
  exact Iff.rfl

/-- Row r lies in the block of point r / 4000: the 25 blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  have hlt : (i 0).val / 4000 < cfg0.N := by rw [hN]; omega
  obtain ⟨-, -, -, -, e0, e1⟩ := idx_facts0 ⟨(i 0).val / 4000, hlt⟩
  refine ⟨⟨(i 0).val / 4000, hlt⟩, flush0_2 _, ?_⟩
  rw [mem_blk0]
  intro a
  match a with
  | ⟨0, _⟩ =>
    show win0_2.index ⟨(i 0).val / 4000, hlt⟩ 0 * 4000 ≤ (i 0).val
      ∧ (i 0).val < win0_2.index ⟨(i 0).val / 4000, hlt⟩ 0 * 4000 + 4000
    rw [e0]; show (i 0).val / 4000 * 4000 ≤ (i 0).val ∧ (i 0).val < (i 0).val / 4000 * 4000 + 4000; omega
  | ⟨1, _⟩ =>
    show win0_2.index ⟨(i 0).val / 4000, hlt⟩ 1 * 128 ≤ (i 1).val
      ∧ (i 1).val < win0_2.index ⟨(i 0).val / 4000, hlt⟩ 1 * 128 + 128
    rw [e1]; omega

/-- The array the region leaves: `scaleRows` of the feature array and the factor column it found. -/
theorem final0 (c : Dev nD) :
    (dat0 V c).arrAt 2 cfg0.N = Cert.Spec.scaleRows (F := Ideal) (V c main_arg0) (V c main_v16) :=
  (dat0 V c).arrAt_eq_of_cover 2 _ (fun t _ => flushed0 V c t) cover0

end Cert.KernelIdeal.Regions

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Region2.lean ====
/-
  The third region: the output layer.

  Point t of the 25 works on rows 4000·t … 4000·t + 3999 of the aggregated features m and of the destination-side
  degree column nd; the weight matrix W and the bias b are read whole at every point. At (p, q) of its block it
  stores  Σ_j (m(4000·t + p, j) · nd(4000·t + p)) · W(j, q) + b(q):  the matrix unit's product into a zero
  accumulator is that sum on the extended reals, and so is the host's dot product, so the block is the block of
  `Cert.Spec.outputLayer`. The blocks tile the 100000 rows.
-/
import proofs.«148521_j38173669327120_1_alg».proof.Proof.Gen.KernelIdeal.Frame
import proofs.«148521_j38173669327120_1_alg».proof.Proof.Spec
import proofs.«148521_j38173669327120_1_alg».proof.Proof.LibColumns
import proofs.«148521_j38173669327120_1_alg».proof.Proof.LibHostColumns
import proofs.«148521_j38173669327120_1_alg».proof.Proof.LibHostRows
import proofs.«148521_j38173669327120_1_alg».proof.Proof.LibMatmul
import proofs.«148521_j38173669327120_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.Regions

open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a; rfl

/-- The linear layer of the specification at row r, column q: a sum over the 128 input features. -/
theorem linear_apply (M : Cert.Spec.FArr Ideal Cert.ReferenceIdeal.S100000x128) (ND : Cert.Spec.FArr Ideal Cert.ReferenceIdeal.S100000x1)
    (W : Cert.Spec.FArr Ideal Cert.ReferenceIdeal.S128x128) (B : Cert.Spec.FArr Ideal Cert.ReferenceIdeal.S128)
    (r : Fin 100000) (q : Fin 128) :
    Cert.Spec.linear M ND W B (ix2 r q)
      = (∑ j : Fin 128, (M (ix2 r j) * ND (ix2 r (0 : Fin 1))) * W (ix2 j q)) + B (ix1 q) := by
  unfold Cert.Spec.linear Cert.Spec.alongRows Cert.Spec.alongCols
  rw [addf_apply, broadcastInDim_row_apply]
  simp only [Host.dotGeneral]
  rw [dotGeneral_ix2 _ rfl rfl rfl rfl rfl rfl]
  refine congrArg (· + B (ix1 q)) (Finset.sum_congr rfl fun j _ => ?_)
  rw [mulf_apply, broadcastInDim_a1_ab_apply]

/-- What a point of the output layer stores at (p, q), from its four blocks. -/
theorem pay2_apply (x0 : Vec Ideal S4000x128 .f32) (x1 : Vec Ideal S4000x1 .f32) (w : Vec Ideal S128x128 .f32)
    (b : Vec Ideal S128 .f32) (p : Fin 4000) (q : Fin 128) :
    k2_pay1 x0 x1 w b (ix2 p q)
      = (∑ j : Fin 128, (x0 (ix2 p j) * x1 (ix2 p (0 : Fin 1))) * w (ix2 j q)) + b (ix1 q) := by
  unfold k2_pay1
  simp only [Idealize.ShloMosaic.matmul]
  rw [addf_apply, broadcastTo_1b_ab_apply, shapeCast_a_1a_apply, matmul_zero_ix2 _ rfl rfl rfl rfl rfl rfl]
  refine congrArg (· + b (ix1 q)) (Finset.sum_congr rfl fun j _ => ?_)
  rw [truncf_apply, truncf_apply, mulf_apply, broadcastTo_a1_ab_apply, shapeCast_self, shapeCast_self, shapeCast_self]

/-- The index maps: features, degree column and output move down one block of rows per point; the weights and the
    bias stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- The feature block of point t is rows 4000·t … of the aggregated features. -/
theorem iblk2_0_apply (c : Dev nD) (t : Fin cfg2.N) (ht : t.val < 25) (p : Fin 4000) (j : Fin 128) :
    (iblk2 V c 0 t : Vec Ideal S4000x128 .f32) (ix2 p j)
      = (V c main_v41 : S100000x128.Idx → Elt Ideal .f32) (ix2 (rowOf t.val ht p) j) := by
  obtain ⟨e0, e1, -⟩ := idx_facts2 t
  unfold iblk2
  rw [View.read_apply]
  show V c main_v41 _ = V c main_v41 _
  refine congrArg (V c main_v41) ?_
  funext a
  apply Fin.ext
  match a with
  | ⟨0, _⟩ => show win2_0.index t 0 * 4000 + 1 * p.val = 4000 * t.val + p.val; rw [e0]; omega
  | ⟨1, _⟩ => show win2_0.index t 1 * 128 + 1 * j.val = j.val; rw [e1]; omega

/-- The degree block of point t is rows 4000·t … of the degree column. -/
theorem iblk2_1_apply (c : Dev nD) (t : Fin cfg2.N) (ht : t.val < 25) (p : Fin 4000) (u : Fin 1) :
    (iblk2 V c 1 t : Vec Ideal S4000x1 .f32) (ix2 p u)
      = (V c main_v19 : S100000x1.Idx → Elt Ideal .f32) (ix2 (rowOf t.val ht p) u) := by
  obtain ⟨-, -, e0, e1, -⟩ := idx_facts2 t
  unfold iblk2
  rw [View.read_apply]
  show V c main_v19 _ = V c main_v19 _
  refine congrArg (V c main_v19) ?_
  funext a
  apply Fin.ext
  match a with
  | ⟨0, _⟩ => show win2_1.index t 0 * 4000 + 1 * p.val = 4000 * t.val + p.val; rw [e0]; omega
  | ⟨1, _⟩ => show win2_1.index t 1 * 1 + 1 * u.val = u.val; rw [e1]; omega

/-- The weight block of every point is the whole weight matrix. -/
theorem iblk2_2_apply (c : Dev nD) (t : Fin cfg2.N) (j q : Fin 128) :
    (iblk2 V c 2 t : Vec Ideal S128x128 .f32) (ix2 j q) = (V c main_arg5 : S128x128.Idx → Elt Ideal .f32) (ix2 j q) := by
  obtain ⟨-, -, -, -, e0, e1, -⟩ := idx_facts2 t
  unfold iblk2
  rw [View.read_apply]
  show V c main_arg5 _ = V c main_arg5 _
  refine congrArg (V c main_arg5) ?_
  funext a
  apply Fin.ext
  match a with
  | ⟨0, _⟩ => show win2_2.index t 0 * 128 + 1 * j.val = j.val; rw [e0]; omega
  | ⟨1, _⟩ => show win2_2.index t 1 * 128 + 1 * q.val = q.val; rw [e1]; omega

/-- The bias block of every point is the whole bias. -/
theorem iblk2_3_apply (c : Dev nD) (t : Fin cfg2.N) (q : Fin 128) :
    (iblk2 V c 3 t : Vec Ideal S128 .f32) (ix1 q) = (V c main_arg6 : S128.Idx → Elt Ideal .f32) (ix1 q) := by
  obtain ⟨-, -, -, -, -, -, e0, -⟩ := idx_facts2 t
  unfold iblk2
  rw [View.read_apply]
  show V c main_arg6 _ = V c main_arg6 _
  refine congrArg (V c main_arg6) ?_
  funext a
  apply Fin.ext
  match a with
  | ⟨0, _⟩ => show win2_3.index t 0 * 128 + 1 * q.val = q.val; rw [e0]; omega

/-- The output block of point t sits at rows 4000·t … of the output array. -/
theorem emb2_4 (t : Fin cfg2.N) (ht : t.val < 25) (p : Fin 4000) (q : Fin 128) :
    ((cfg2.win 4).blk t).view.emb (ix2 p q) = ix2 (rowOf t.val ht p) q := by
  obtain ⟨-, -, -, -, -, -, -, e0, e1⟩ := idx_facts2 t
  funext a
  apply Fin.ext
  match a with
  | ⟨0, _⟩ => show win2_4.index t 0 * 4000 + 1 * p.val = 4000 * t.val + p.val; rw [e0]; omega
  | ⟨1, _⟩ => show win2_4.index t 1 * 128 + 1 * q.val = q.val; rw [e1]; omega

/-- What point t writes back is block t of the output layer of the arrays as the region finds them. -/
theorem flushed2 (c : Dev nD) (t : Fin cfg2.N) :
    (dat2 V c).flushed 4 t
      = ((cfg2.win 4).blk t).view.read (Elt Ideal)
          (Cert.Spec.outputLayer (F := Ideal) (V c main_v41) (V c main_v19) (V c main_arg5) (V c main_arg6)) := by
  have ht : t.val < 25 := Nat.lt_of_lt_of_eq t.isLt N_2
  show (cfg2.win 4).cut (grid2.coords t) ((dat2 V c).after 4 t) = _
  rw [after2_4]
  unfold out2_4
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (iblk2 V c 3 t) (ix2 p q)
    = Cert.Spec.outputLayer (F := Ideal) (V c main_v41) (V c main_v19) (V c main_arg5) (V c main_arg6)
        (((cfg2.win 4).blk t).view.emb (ix2 p q))
  rw [emb2_4 t ht p q]
  unfold Cert.Spec.outputLayer
  rw [linear_apply, pay2_apply, iblk2_3_apply V c t q]
  refine congrArg (· + _) (Finset.sum_congr rfl fun j _ => ?_)
  rw [iblk2_0_apply V c t ht p j, iblk2_1_apply V c t ht p 0, iblk2_2_apply V c t j q]

/-- An index of the output array is in point t's block iff each coordinate is in the block's range. -/
theorem mem_blk2 (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v42).slice (win2_4.rect t)).set ↔ _
  rw [View.set_slice_whole, Rect.mem_set_unit]
  exact Iff.rfl

/-- Row r lies in the block of point r / 4000: the 25 blocks tile the array. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 25 := N_2
  have hlt : (i 0).val / 4000 < cfg2.N := by rw [hN]; omega
  obtain ⟨-, -, -, -, -, -, -, e0, e1⟩ := idx_facts2 ⟨(i 0).val / 4000, hlt⟩
  refine ⟨⟨(i 0).val / 4000, hlt⟩, flush2_4 _, ?_⟩
  rw [mem_blk2]
  intro a
  match a with
  | ⟨0, _⟩ =>
    show win2_4.index ⟨(i 0).val / 4000, hlt⟩ 0 * 4000 ≤ (i 0).val
      ∧ (i 0).val < win2_4.index ⟨(i 0).val / 4000, hlt⟩ 0 * 4000 + 4000
    rw [e0]; show (i 0).val / 4000 * 4000 ≤ (i 0).val ∧ (i 0).val < (i 0).val / 4000 * 4000 + 4000; omega
  | ⟨1, _⟩ =>
    show win2_4.index ⟨(i 0).val / 4000, hlt⟩ 1 * 128 ≤ (i 1).val
      ∧ (i 1).val < win2_4.index ⟨(i 0).val / 4000, hlt⟩ 1 * 128 + 128
    rw [e1]; omega

/-- The array the region leaves: the output layer of the arrays it found. -/
theorem final2 (c : Dev nD) :
    (dat2 V c).arrAt 4 cfg2.N = Cert.Spec.outputLayer (F := Ideal) (V c main_v41) (V c main_v19)
      (V c main_arg5) (V c main_arg6) :=
  (dat2 V c).arrAt_eq_of_cover 4 _ (fun t _ => flushed2 V c t) cover2

end Cert.KernelIdeal.Regions

end
-- ==== Proof.Region1.lean ====
/-
  The second region: the hidden layer.

  Point t of the 25 works on rows 4000·t … 4000·t + 3999 of the aggregated features m and of the two degree columns
  nd (destination side) and ns (source side); the weights W, the bias b and the four normalisation vectors γ, β, μ,
  σ² are read whole at every point. At (p, q) of its block, with r = 4000·t + p, it stores
      act(((Σ_j (m(r, j) · nd(r)) · W(j, q) + b(q) − μ(q)) · (σ²(q) + ε)^(−1/2)) · γ(q) + β(q)) · ns(r),
  act(y) = y if y > 0 else slope · y. The reference lays the same vectors against every row and applies the same
  operations to whole arrays, so entry (r, q) of `Cert.Spec.hiddenLayer` is that number too: a change of float format
  is the identity on the extended reals, the matrix unit's product into zero and the host's dot product are the same
  sum, and the two reciprocal square roots are one function there.
-/
import proofs.«148521_j38173669327120_1_alg».proof.Proof.Gen.KernelIdeal.Frame
import proofs.«148521_j38173669327120_1_alg».proof.Proof.Spec
import proofs.«148521_j38173669327120_1_alg».proof.Proof.LibColumns
import proofs.«148521_j38173669327120_1_alg».proof.Proof.LibHostColumns
import proofs.«148521_j38173669327120_1_alg».proof.Proof.LibHostRows
import proofs.«148521_j38173669327120_1_alg».proof.Proof.LibMatmul
import proofs.«148521_j38173669327120_1_alg».proof.Proof.Region0
import proofs.«148521_j38173669327120_1_alg».proof.Proof.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.Regions

open Cert.KernelIdeal Cert.KernelIdeal.Gen

variable (V : (c : Dev nD) → (b : Ref sig .tc) → Buf (Elt Ideal) ((c : Thread nD τ).loc b))

/-- Normalisation with running statistics, one number: ((z − μ) · (σ² + ε)^(−1/2)) · γ + β. -/
def bnAt (z μ σ2 γ β : Ideal .f32) : Ideal .f32 :=
  ((z - μ) * Ideal.rsqrt (σ2 + Ideal.ofBits .f32 0x3727C5AC#32)) * γ + β

/-- The leaky rectifier, one number: y where y > 0, slope · y elsewhere. -/
def leakyAt (y : Ideal .f32) : Ideal .f32 :=
  Scalar.select (FloatOps.cmpf (F := Ideal) .ogt y (Ideal.ofBits .f32 0x00000000#32)) y (Ideal.ofBits .f32 0x3C23D70A#32 * y)

theorem rsqrt_apply {s : Shape} {φ : FTy} (x : FVec Ideal s φ) (i : s.Idx) : rsqrt x i = Ideal.rsqrt (x i) := rfl
theorem hostRsqrt_apply {s : Shape} {φ : FTy} (x : FVec Ideal s φ) (i : s.Idx) : Host.rsqrt x i = Ideal.rsqrt (x i) := rfl
/-- A word as a scalar is the number its pattern denotes (for any word: nothing is evaluated). -/
theorem scalar_ofBits (φ : FTy) (b : BitVec φ.bits) : Scalar.ofBits (F := Ideal) φ b = Ideal.ofBits φ b := rfl

/-- The hidden layer of the specification at row r, column q. -/
theorem hidden_apply (M : Cert.Spec.FArr Ideal Cert.ReferenceIdeal.S100000x128) (ND NS : Cert.Spec.FArr Ideal Cert.ReferenceIdeal.S100000x1)
    (W : Cert.Spec.FArr Ideal Cert.ReferenceIdeal.S128x128) (B Gm Bt Mn Vr : Cert.Spec.FArr Ideal Cert.ReferenceIdeal.S128)
    (r : Fin 100000) (q : Fin 128) :
    Cert.Spec.hiddenLayer M ND NS W B Gm Bt Mn Vr (ix2 r q)
      = leakyAt (bnAt (Cert.Spec.linear M ND W B (ix2 r q)) (Mn (ix1 q)) (Vr (ix1 q)) (Gm (ix1 q)) (Bt (ix1 q)))
          * NS (ix2 r (0 : Fin 1)) := by
  unfold Cert.Spec.hiddenLayer Cert.Spec.leaky Cert.Spec.normalize Cert.Spec.alongRows Cert.Spec.alongCols leakyAt bnAt
  have e1 : ∀ b : BitVec 32, broadcastInDim Cert.ReferenceIdeal.S128 ![] Cert.ReferenceIdeal.Gen.bcast_S_S128
      (constant (F := Ideal) Cert.ReferenceIdeal.S_ .f32 b) (ix1 q) = Ideal.ofBits .f32 b :=
    fun b => broadcastInDim_apply _ _ _ _ ix0 (fun a => a.elim0)
  have e2 : ∀ b : BitVec 32, broadcastInDim Cert.ReferenceIdeal.S100000x128 ![] Cert.ReferenceIdeal.Gen.bcast_S_S100000x128
      (constant (F := Ideal) Cert.ReferenceIdeal.S_ .f32 b) (ix2 r q) = Ideal.ofBits .f32 b :=
    fun b => broadcastInDim_apply _ _ _ _ ix0 (fun a => a.elim0)
  simp only [mulf_apply, addf_apply, subf_apply, select_apply, cmpf_apply, broadcastInDim_row_apply,
    broadcastInDim_a1_ab_apply, hostRsqrt_apply, e1, e2]

/-- What a point of the hidden layer stores at (p, q), from its nine blocks. -/
theorem pay1_apply (x0 : Vec Ideal S4000x128 .f32) (x1 x2 : Vec Ideal S4000x1 .f32) (w : Vec Ideal S128x128 .f32)
    (b μ σ2 γ β : Vec Ideal S128 .f32) (p : Fin 4000) (q : Fin 128) :
    k1_pay1 (k1_pay2 x0 x1 w b μ σ2 γ β) (k1_pay3 x2) (ix2 p q)
      = leakyAt (bnAt ((∑ j : Fin 128, (x0 (ix2 p j) * x1 (ix2 p (0 : Fin 1))) * w (ix2 j q)) + b (ix1 q))
            (μ (ix1 q)) (σ2 (ix1 q)) (γ (ix1 q)) (β (ix1 q)))
          * x2 (ix2 p (0 : Fin 1)) := by
  unfold k1_pay1 k1_pay2 k1_pay3 leakyAt bnAt
  simp only [Idealize.ShloMosaic.matmul, mulf_apply, addf_apply, subf_apply, select_apply, cmpf_apply, broadcast_apply,
    broadcastTo_1b_ab_apply, broadcastTo_a1_ab_apply, shapeCast_a_1a_apply, shapeCast_self, truncf_apply,
    matmul_zero_ix2 dot_S4000x128_S128x128_S4000x128_1_0_0_1_n_n rfl rfl rfl rfl rfl rfl, rsqrt_apply, scalar_ofBits]

/-- A point's stored value is the hidden layer's entry, once its blocks are the matching rows of the arrays. -/
theorem point1 (x0 : Vec Ideal S4000x128 .f32) (x1 x2 : Vec Ideal S4000x1 .f32) (w : Vec Ideal S128x128 .f32)
    (b μ σ2 γ β : Vec Ideal S128 .f32)
    (M : Cert.Spec.FArr Ideal Cert.ReferenceIdeal.S100000x128) (ND NS : Cert.Spec.FArr Ideal Cert.ReferenceIdeal.S100000x1)
    (W : Cert.Spec.FArr Ideal Cert.ReferenceIdeal.S128x128) (B Gm Bt Mn Vr : Cert.Spec.FArr Ideal Cert.ReferenceIdeal.S128)
    (r : Fin 100000) (p : Fin 4000) (q : Fin 128)
    (h0 : ∀ j : Fin 128, x0 (ix2 p j) = M (ix2 r j)) (h1 : x1 (ix2 p (0 : Fin 1)) = ND (ix2 r (0 : Fin 1)))
    (h2 : x2 (ix2 p (0 : Fin 1)) = NS (ix2 r (0 : Fin 1))) (hw : ∀ j : Fin 128, w (ix2 j q) = W (ix2 j q))
    (hb : b (ix1 q) = B (ix1 q)) (hμ : μ (ix1 q) = Mn (ix1 q)) (hσ : σ2 (ix1 q) = Vr (ix1 q))
    (hγ : γ (ix1 q) = Gm (ix1 q)) (hβ : β (ix1 q) = Bt (ix1 q)) :
    k1_pay1 (k1_pay2 x0 x1 w b μ σ2 γ β) (k1_pay3 x2) (ix2 p q) = Cert.Spec.hiddenLayer M ND NS W B Gm Bt Mn Vr (ix2 r q) := by
  rw [pay1_apply, hidden_apply, linear_apply, h1, h2, hb, hμ, hσ, hγ, hβ]
  simp only [h0, hw]

/-- The index maps: features, the two degree columns and the output move down one block of rows per point; the
    weights and the five vectors stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

/-- The feature block of point t is rows 4000·t … of the aggregated features. -/
theorem iblk1_0_apply (c : Dev nD) (t : Fin cfg1.N) (ht : t.val < 25) (p : Fin 4000) (j : Fin 128) :
    (iblk1 V c 0 t : Vec Ideal S4000x128 .f32) (ix2 p j)
      = (V c main_v30 : S100000x128.Idx → Elt Ideal .f32) (ix2 (rowOf t.val ht p) j) := by
  obtain ⟨e0, e1, -⟩ := idx_facts1 t
  unfold iblk1
  rw [View.read_apply]
  show V c main_v30 _ = V c main_v30 _
  refine congrArg (V c main_v30) ?_
  funext a
  apply Fin.ext
  match a with
  | ⟨0, _⟩ => show win1_0.index t 0 * 4000 + 1 * p.val = 4000 * t.val + p.val; rw [e0]; omega
  | ⟨1, _⟩ => show win1_0.index t 1 * 128 + 1 * j.val = j.val; rw [e1]; omega

/-- The destination-side degree block of point t is rows 4000·t … of the destination-side degree column. -/
theorem iblk1_1_apply (c : Dev nD) (t : Fin cfg1.N) (ht : t.val < 25) (p : Fin 4000) (u : Fin 1) :
    (iblk1 V c 1 t : Vec Ideal S4000x1 .f32) (ix2 p u)
      = (V c main_v19 : S100000x1.Idx → Elt Ideal .f32) (ix2 (rowOf t.val ht p) u) := by
  have e0 : win1_1.index t (0 : Fin 2) = t.val := (idx_facts1 t).2.2.1
  have e1 : win1_1.index t (1 : Fin 2) = 0 := (idx_facts1 t).2.2.2.1
  unfold iblk1
  rw [View.read_apply]
  show V c main_v19 _ = V c main_v19 _
  refine congrArg (V c main_v19) ?_
  funext a
  apply Fin.ext
  match a with
  | ⟨0, _⟩ => show win1_1.index t 0 * 4000 + 1 * p.val = 4000 * t.val + p.val; rw [e0]; omega
  | ⟨1, _⟩ => show win1_1.index t 1 * 1 + 1 * u.val = u.val; rw [e1]; omega

/-- The source-side degree block of point t is rows 4000·t … of the source-side degree column. -/
theorem iblk1_2_apply (c : Dev nD) (t : Fin cfg1.N) (ht : t.val < 25) (p : Fin 4000) (u : Fin 1) :
    (iblk1 V c 2 t : Vec Ideal S4000x1 .f32) (ix2 p u)
      = (V c main_v16 : S100000x1.Idx → Elt Ideal .f32) (ix2 (rowOf t.val ht p) u) := by
  have e0 : win1_2.index t (0 : Fin 2) = t.val := (idx_facts1 t).2.2.2.2.1
  have e1 : win1_2.index t (1 : Fin 2) = 0 := (idx_facts1 t).2.2.2.2.2.1
  unfold iblk1
  rw [View.read_apply]
  show V c main_v16 _ = V c main_v16 _
  refine congrArg (V c main_v16) ?_
  funext a
  apply Fin.ext
  match a with
  | ⟨0, _⟩ => show win1_2.index t 0 * 4000 + 1 * p.val = 4000 * t.val + p.val; rw [e0]; omega
  | ⟨1, _⟩ => show win1_2.index t 1 * 1 + 1 * u.val = u.val; rw [e1]; omega

/-- The weight block of every point is the whole weight matrix. -/
theorem iblk1_3_apply (c : Dev nD) (t : Fin cfg1.N) (j q : Fin 128) :
    (iblk1 V c 3 t : Vec Ideal S128x128 .f32) (ix2 j q) = (V c main_arg3 : S128x128.Idx → Elt Ideal .f32) (ix2 j q) := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show V c main_arg3 _ = V c main_arg3 _
  refine congrArg (V c main_arg3) ?_
  funext a
  apply Fin.ext
  match a with
  | ⟨0, _⟩ => show win1_3.index t 0 * 128 + 1 * j.val = j.val; rw [e0]; omega
  | ⟨1, _⟩ => show win1_3.index t 1 * 128 + 1 * q.val = q.val; rw [e1]; omega

/-- The bias block of every point is the whole bias vector. -/
theorem iblk1_4_apply (c : Dev nD) (t : Fin cfg1.N) (q : Fin 128) :
    (iblk1 V c 4 t : Vec Ideal S128 .f32) (ix1 q) = (V c main_arg4 : S128.Idx → Elt Ideal .f32) (ix1 q) := by
  have e0 : win1_4.index t (0 : Fin 1) = 0 := (idx_facts1 t).2.2.2.2.2.2.2.2.1
  unfold iblk1
  rw [View.read_apply]
  show V c main_arg4 _ = V c main_arg4 _
  refine congrArg (V c main_arg4) ?_
  funext a
  apply Fin.ext
  match a with
  | ⟨0, _⟩ => show win1_4.index t 0 * 128 + 1 * q.val = q.val; rw [e0]; omega

/-- The scale block of every point is the whole scale vector. -/
theorem iblk1_5_apply (c : Dev nD) (t : Fin cfg1.N) (q : Fin 128) :
    (iblk1 V c 5 t : Vec Ideal S128 .f32) (ix1 q) = (V c main_arg7 : S128.Idx → Elt Ideal .f32) (ix1 q) := by
  have e0 : win1_5.index t (0 : Fin 1) = 0 := (idx_facts1 t).2.2.2.2.2.2.2.2.2.1
  unfold iblk1
  rw [View.read_apply]
  show V c main_arg7 _ = V c main_arg7 _
  refine congrArg (V c main_arg7) ?_
  funext a
  apply Fin.ext
  match a with
  | ⟨0, _⟩ => show win1_5.index t 0 * 128 + 1 * q.val = q.val; rw [e0]; omega

/-- The shift block of every point is the whole shift vector. -/
theorem iblk1_6_apply (c : Dev nD) (t : Fin cfg1.N) (q : Fin 128) :
    (iblk1 V c 6 t : Vec Ideal S128 .f32) (ix1 q) = (V c main_arg8 : S128.Idx → Elt Ideal .f32) (ix1 q) := by
  have e0 : win1_6.index t (0 : Fin 1) = 0 := (idx_facts1 t).2.2.2.2.2.2.2.2.2.2.1
  unfold iblk1
  rw [View.read_apply]
  show V c main_arg8 _ = V c main_arg8 _
  refine congrArg (V c main_arg8) ?_
  funext a
  apply Fin.ext
  match a with
  | ⟨0, _⟩ => show win1_6.index t 0 * 128 + 1 * q.val = q.val; rw [e0]; omega

/-- The running-mean block of every point is the whole running-mean vector. -/
theorem iblk1_7_apply (c : Dev nD) (t : Fin cfg1.N) (q : Fin 128) :
    (iblk1 V c 7 t : Vec Ideal S128 .f32) (ix1 q) = (V c main_arg9 : S128.Idx → Elt Ideal .f32) (ix1 q) := by
  have e0 : win1_7.index t (0 : Fin 1) = 0 := (idx_facts1 t).2.2.2.2.2.2.2.2.2.2.2.1
  unfold iblk1
  rw [View.read_apply]
  show V c main_arg9 _ = V c main_arg9 _
  refine congrArg (V c main_arg9) ?_
  funext a
  apply Fin.ext
  match a with
  | ⟨0, _⟩ => show win1_7.index t 0 * 128 + 1 * q.val = q.val; rw [e0]; omega

/-- The running-variance block of every point is the whole running-variance vector. -/
theorem iblk1_8_apply (c : Dev nD) (t : Fin cfg1.N) (q : Fin 128) :
    (iblk1 V c 8 t : Vec Ideal S128 .f32) (ix1 q) = (V c main_arg10 : S128.Idx → Elt Ideal .f32) (ix1 q) := by
  have e0 : win1_8.index t (0 : Fin 1) = 0 := (idx_facts1 t).2.2.2.2.2.2.2.2.2.2.2.2.1
  unfold iblk1
  rw [View.read_apply]
  show V c main_arg10 _ = V c main_arg10 _
  refine congrArg (V c main_arg10) ?_
  funext a
  apply Fin.ext
  match a with
  | ⟨0, _⟩ => show win1_8.index t 0 * 128 + 1 * q.val = q.val; rw [e0]; omega

/-- The output block of point t sits at rows 4000·t … of the output array. -/
theorem emb1_9 (t : Fin cfg1.N) (ht : t.val < 25) (p : Fin 4000) (q : Fin 128) :
    ((cfg1.win 9).blk t).view.emb (ix2 p q) = ix2 (rowOf t.val ht p) q := by
  have e0 : win1_9.index t (0 : Fin 2) = t.val := (idx_facts1 t).2.2.2.2.2.2.2.2.2.2.2.2.2.1
  have e1 : win1_9.index t (1 : Fin 2) = 0 := (idx_facts1 t).2.2.2.2.2.2.2.2.2.2.2.2.2.2
  funext a
  apply Fin.ext
  match a with
  | ⟨0, _⟩ => show win1_9.index t 0 * 4000 + 1 * p.val = 4000 * t.val + p.val; rw [e0]; omega
  | ⟨1, _⟩ => show win1_9.index t 1 * 128 + 1 * q.val = q.val; rw [e1]; omega

/-- What point t writes back is block t of the hidden layer of the arrays as the region finds them. -/
theorem flushed1 (c : Dev nD) (t : Fin cfg1.N) :
    (dat1 V c).flushed 9 t
      = ((cfg1.win 9).blk t).view.read (Elt Ideal)
          (Cert.Spec.hiddenLayer (F := Ideal) (V c main_v30) (V c main_v19) (V c main_v16) (V c main_arg3)
            (V c main_arg4) (V c main_arg7) (V c main_arg8) (V c main_arg9) (V c main_arg10)) := by
  have ht : t.val < 25 := Nat.lt_of_lt_of_eq t.isLt N_1
  show (cfg1.win 9).cut (grid1.coords t) ((dat1 V c).after 9 t) = _
  rw [after1_9]
  unfold out1_9
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  show k1_pay1 (k1_pay2 (iblk1 V c 0 t) (iblk1 V c 1 t) (iblk1 V c 3 t) (iblk1 V c 4 t) (iblk1 V c 7 t) (iblk1 V c 8 t)
        (iblk1 V c 5 t) (iblk1 V c 6 t)) (k1_pay3 (iblk1 V c 2 t)) (ix2 p q)
    = Cert.Spec.hiddenLayer (F := Ideal) (V c main_v30) (V c main_v19) (V c main_v16) (V c main_arg3)
        (V c main_arg4) (V c main_arg7) (V c main_arg8) (V c main_arg9) (V c main_arg10)
        (((cfg1.win 9).blk t).view.emb (ix2 p q))
  rw [emb1_9 t ht p q]
  exact point1 _ _ _ _ _ _ _ _ _ _ _ _ _ _ _ _ _ _ (rowOf t.val ht p) p q
    (fun j => iblk1_0_apply V c t ht p j) (iblk1_1_apply V c t ht p 0) (iblk1_2_apply V c t ht p 0)
    (fun j => iblk1_3_apply V c t j q) (iblk1_4_apply V c t q) (iblk1_7_apply V c t q) (iblk1_8_apply V c t q)
    (iblk1_5_apply V c t q) (iblk1_6_apply V c t q)

/-- An index of the output array is in point t's block iff each coordinate is in the block's range. -/
theorem mem_blk1 (t : Fin cfg1.N) (i : S100000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v31).slice (win1_9.rect t)).set ↔ _
  rw [View.set_slice_whole, Rect.mem_set_unit]
  exact Iff.rfl

/-- Row r lies in the block of point r / 4000: the 25 blocks tile the array. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 25 := N_1
  have hlt : (i 0).val / 4000 < cfg1.N := by rw [hN]; omega
  have e0 : win1_9.index ⟨(i 0).val / 4000, hlt⟩ (0 : Fin 2) = (i 0).val / 4000 := (idx_facts1 _).2.2.2.2.2.2.2.2.2.2.2.2.2.1
  have e1 : win1_9.index ⟨(i 0).val / 4000, hlt⟩ (1 : Fin 2) = 0 := (idx_facts1 _).2.2.2.2.2.2.2.2.2.2.2.2.2.2
  refine ⟨⟨(i 0).val / 4000, hlt⟩, flush1_9 _, ?_⟩
  rw [mem_blk1]
  intro a
  match a with
  | ⟨0, _⟩ =>
    show win1_9.index ⟨(i 0).val / 4000, hlt⟩ 0 * 4000 ≤ (i 0).val
      ∧ (i 0).val < win1_9.index ⟨(i 0).val / 4000, hlt⟩ 0 * 4000 + 4000
    rw [e0]; omega
  | ⟨1, _⟩ =>
    show win1_9.index ⟨(i 0).val / 4000, hlt⟩ 1 * 128 ≤ (i 1).val
      ∧ (i 1).val < win1_9.index ⟨(i 0).val / 4000, hlt⟩ 1 * 128 + 128
    rw [e1]; omega

/-- The array the region leaves: the hidden layer of the arrays it found. -/
theorem final1 (c : Dev nD) :
    (dat1 V c).arrAt 9 cfg1.N = Cert.Spec.hiddenLayer (F := Ideal) (V c main_v30) (V c main_v19) (V c main_v16)
      (V c main_arg3) (V c main_arg4) (V c main_arg7) (V c main_arg8) (V c main_arg9) (V c main_arg10) :=
  (dat1 V c).arrAt_eq_of_cover 9 _ (fun t _ => flushed1 V c t) cover1

end Cert.KernelIdeal.Regions

end
-- ==== Proof.Boundaries.lean ====
/-
  The contents of the buffers at the boundaries between the program's segments, as functions of the launch arrays.

  The program is six segments: host operations, a region, host operations, a region, host operations, a region. The
  contents at each boundary are determined by the contents at the boundary before it:
    * across a stretch of host operations, a buffer the stretch writes holds the operations' value of the contents
      before, and any other buffer is unchanged;
    * across a region, its output array holds the region's layer applied to the arrays the region found, its input
      arrays and every buffer outside the region are unchanged.
  Walking from the launch memory forward, each buffer a later segment reads is named here by its value:
    first stretch   the looped endpoint lists and the two degree factors;
    first region    the features scaled by the source-side factor;
    second stretch  their aggregation over the edges;
    second region   the hidden layer of that;
    third stretch   its aggregation;
    third region    the output layer — which is the whole forward pass of the specification.
-/
import proofs.«148521_j38173669327120_1_alg».proof.Proof.Gen.KernelIdeal.Frame
import proofs.«148521_j38173669327120_1_alg».proof.Proof.Spec
import proofs.«148521_j38173669327120_1_alg».proof.Proof.HostReads
import proofs.«148521_j38173669327120_1_alg».proof.Proof.Region0
import proofs.«148521_j38173669327120_1_alg».proof.Proof.Region1
import proofs.«148521_j38173669327120_1_alg».proof.Proof.Region2
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-! ## The intermediate arrays, named as functions of the launch arrays -/

/-- The node features, each row times its node's source-side degree factor. -/
abbrev scaled (c : Dev nD) :=
  Cert.Spec.scaleRows (F := Ideal) (m ((c : Thread nD τ).loc main_arg0)) (Cert.Spec.degScale (F := Ideal) (m ((c : Thread nD τ).loc main_arg1)))

/-- The scaled features aggregated over the edges (self-loops included). -/
abbrev aggregated (c : Dev nD) :=
  Cert.Spec.aggregate (F := Ideal) (m ((c : Thread nD τ).loc main_arg1)) (m ((c : Thread nD τ).loc main_arg2)) (scaled m c)

/-- The hidden layer of the aggregated features, already scaled for the next aggregation. -/
abbrev hidden (c : Dev nD) :=
  Cert.Spec.hiddenLayer (F := Ideal) (aggregated m c) (Cert.Spec.degScale (F := Ideal) (m ((c : Thread nD τ).loc main_arg2))) (Cert.Spec.degScale (F := Ideal) (m ((c : Thread nD τ).loc main_arg1)))
    (m ((c : Thread nD τ).loc main_arg3)) (m ((c : Thread nD τ).loc main_arg4)) (m ((c : Thread nD τ).loc main_arg7))
    (m ((c : Thread nD τ).loc main_arg8)) (m ((c : Thread nD τ).loc main_arg9)) (m ((c : Thread nD τ).loc main_arg10))

/-- The hidden features aggregated over the edges. -/
abbrev aggregatedHidden (c : Dev nD) :=
  Cert.Spec.aggregate (F := Ideal) (m ((c : Thread nD τ).loc main_arg1)) (m ((c : Thread nD τ).loc main_arg2)) (hidden m c)

/-! ## After the first stretch of host operations (the first region's entry) -/

theorem W1_v1 (c : Dev nD) :
    W1 m ρ c (Proc.devRef .tc main_v1) = Cert.Spec.withLoops (F := Ideal) (m ((c : Thread nD τ).loc main_arg1)) :=
  hostOps0_v1 (W0 m ρ c)

theorem W1_v2 (c : Dev nD) :
    W1 m ρ c (Proc.devRef .tc main_v2) = Cert.Spec.withLoops (F := Ideal) (m ((c : Thread nD τ).loc main_arg2)) :=
  hostOps0_v2 (W0 m ρ c)

theorem W1_v16 (c : Dev nD) :
    W1 m ρ c (Proc.devRef .tc main_v16) = Cert.Spec.degScale (F := Ideal) (m ((c : Thread nD τ).loc main_arg1)) :=
  hostOps0_v16 (W0 m ρ c)

theorem W1_v19 (c : Dev nD) :
    W1 m ρ c (Proc.devRef .tc main_v19) = Cert.Spec.degScale (F := Ideal) (m ((c : Thread nD τ).loc main_arg2)) :=
  hostOps0_v19 (W0 m ρ c)

theorem W1_arg0 (c : Dev nD) :
    W1 m ρ c (Proc.devRef .tc main_arg0) = m ((c : Thread nD τ).loc main_arg0) :=
  keep0 (W0 m ρ c) main_arg0 (by decide)

theorem W1_arg3 (c : Dev nD) :
    W1 m ρ c (Proc.devRef .tc main_arg3) = m ((c : Thread nD τ).loc main_arg3) :=
  keep0 (W0 m ρ c) main_arg3 (by decide)

theorem W1_arg4 (c : Dev nD) :
    W1 m ρ c (Proc.devRef .tc main_arg4) = m ((c : Thread nD τ).loc main_arg4) :=
  keep0 (W0 m ρ c) main_arg4 (by decide)

theorem W1_arg5 (c : Dev nD) :
    W1 m ρ c (Proc.devRef .tc main_arg5) = m ((c : Thread nD τ).loc main_arg5) :=
  keep0 (W0 m ρ c) main_arg5 (by decide)

theorem W1_arg6 (c : Dev nD) :
    W1 m ρ c (Proc.devRef .tc main_arg6) = m ((c : Thread nD τ).loc main_arg6) :=
  keep0 (W0 m ρ c) main_arg6 (by decide)

theorem W1_arg7 (c : Dev nD) :
    W1 m ρ c (Proc.devRef .tc main_arg7) = m ((c : Thread nD τ).loc main_arg7) :=
  keep0 (W0 m ρ c) main_arg7 (by decide)

theorem W1_arg8 (c : Dev nD) :
    W1 m ρ c (Proc.devRef .tc main_arg8) = m ((c : Thread nD τ).loc main_arg8) :=
  keep0 (W0 m ρ c) main_arg8 (by decide)

theorem W1_arg9 (c : Dev nD) :
    W1 m ρ c (Proc.devRef .tc main_arg9) = m ((c : Thread nD τ).loc main_arg9) :=
  keep0 (W0 m ρ c) main_arg9 (by decide)

theorem W1_arg10 (c : Dev nD) :
    W1 m ρ c (Proc.devRef .tc main_arg10) = m ((c : Thread nD τ).loc main_arg10) :=
  keep0 (W0 m ρ c) main_arg10 (by decide)

/-! ## After the first region: the scaled features; every other buffer as the region found it -/

theorem W2_v20 (c : Dev nD) :
    W2 m ρ c (Proc.devRef .tc main_v20) = scaled m c :=
  (W2_arr m ρ c 2).trans ((Regions.final0 (V1 m ρ) c).trans (by
    rw [show V1 m ρ c main_arg0 = _ from W1_arg0 m ρ c, show V1 m ρ c main_v16 = _ from W1_v16 m ρ c]))

theorem W2_v16 (c : Dev nD) :
    W2 m ρ c (Proc.devRef .tc main_v16) = Cert.Spec.degScale (F := Ideal) (m ((c : Thread nD τ).loc main_arg1)) :=
  (W2_arr m ρ c 1).trans (((dat0 (V1 m ρ) c).arrAt_in 1 rfl _).trans
    ((A_eq0 (V1 m ρ) c 1).trans (W1_v16 m ρ c)))

theorem W2_v1 (c : Dev nD) :
    W2 m ρ c (Proc.devRef .tc main_v1) = Cert.Spec.withLoops (F := Ideal) (m ((c : Thread nD τ).loc main_arg1)) :=
  (W2_of_ne m ρ c main_v1 (by decide)).trans (W1_v1 m ρ c)

theorem W2_v2 (c : Dev nD) :
    W2 m ρ c (Proc.devRef .tc main_v2) = Cert.Spec.withLoops (F := Ideal) (m ((c : Thread nD τ).loc main_arg2)) :=
  (W2_of_ne m ρ c main_v2 (by decide)).trans (W1_v2 m ρ c)

theorem W2_v19 (c : Dev nD) :
    W2 m ρ c (Proc.devRef .tc main_v19) = Cert.Spec.degScale (F := Ideal) (m ((c : Thread nD τ).loc main_arg2)) :=
  (W2_of_ne m ρ c main_v19 (by decide)).trans (W1_v19 m ρ c)

theorem W2_arg3 (c : Dev nD) :
    W2 m ρ c (Proc.devRef .tc main_arg3) = m ((c : Thread nD τ).loc main_arg3) :=
  (W2_of_ne m ρ c main_arg3 (by decide)).trans (W1_arg3 m ρ c)

theorem W2_arg4 (c : Dev nD) :
    W2 m ρ c (Proc.devRef .tc main_arg4) = m ((c : Thread nD τ).loc main_arg4) :=
  (W2_of_ne m ρ c main_arg4 (by decide)).trans (W1_arg4 m ρ c)

theorem W2_arg5 (c : Dev nD) :
    W2 m ρ c (Proc.devRef .tc main_arg5) = m ((c : Thread nD τ).loc main_arg5) :=
  (W2_of_ne m ρ c main_arg5 (by decide)).trans (W1_arg5 m ρ c)

theorem W2_arg6 (c : Dev nD) :
    W2 m ρ c (Proc.devRef .tc main_arg6) = m ((c : Thread nD τ).loc main_arg6) :=
  (W2_of_ne m ρ c main_arg6 (by decide)).trans (W1_arg6 m ρ c)

theorem W2_arg7 (c : Dev nD) :
    W2 m ρ c (Proc.devRef .tc main_arg7) = m ((c : Thread nD τ).loc main_arg7) :=
  (W2_of_ne m ρ c main_arg7 (by decide)).trans (W1_arg7 m ρ c)

theorem W2_arg8 (c : Dev nD) :
    W2 m ρ c (Proc.devRef .tc main_arg8) = m ((c : Thread nD τ).loc main_arg8) :=
  (W2_of_ne m ρ c main_arg8 (by decide)).trans (W1_arg8 m ρ c)

theorem W2_arg9 (c : Dev nD) :
    W2 m ρ c (Proc.devRef .tc main_arg9) = m ((c : Thread nD τ).loc main_arg9) :=
  (W2_of_ne m ρ c main_arg9 (by decide)).trans (W1_arg9 m ρ c)

theorem W2_arg10 (c : Dev nD) :
    W2 m ρ c (Proc.devRef .tc main_arg10) = m ((c : Thread nD τ).loc main_arg10) :=
  (W2_of_ne m ρ c main_arg10 (by decide)).trans (W1_arg10 m ρ c)

/-! ## After the second stretch (the second region's entry): the first aggregation -/

theorem W3_v30 (c : Dev nD) :
    W3 m ρ c (Proc.devRef .tc main_v30) = aggregated m c :=
  (hostOps1_v30 (W2 m ρ c)).trans (by rw [W2_v1 m ρ c, W2_v2 m ρ c, W2_v20 m ρ c]; rfl)

theorem W3_v1 (c : Dev nD) :
    W3 m ρ c (Proc.devRef .tc main_v1) = Cert.Spec.withLoops (F := Ideal) (m ((c : Thread nD τ).loc main_arg1)) :=
  (keep1 (W2 m ρ c) main_v1 (by decide)).trans (W2_v1 m ρ c)

theorem W3_v2 (c : Dev nD) :
    W3 m ρ c (Proc.devRef .tc main_v2) = Cert.Spec.withLoops (F := Ideal) (m ((c : Thread nD τ).loc main_arg2)) :=
  (keep1 (W2 m ρ c) main_v2 (by decide)).trans (W2_v2 m ρ c)

theorem W3_v16 (c : Dev nD) :
    W3 m ρ c (Proc.devRef .tc main_v16) = Cert.Spec.degScale (F := Ideal) (m ((c : Thread nD τ).loc main_arg1)) :=
  (keep1 (W2 m ρ c) main_v16 (by decide)).trans (W2_v16 m ρ c)

theorem W3_v19 (c : Dev nD) :
    W3 m ρ c (Proc.devRef .tc main_v19) = Cert.Spec.degScale (F := Ideal) (m ((c : Thread nD τ).loc main_arg2)) :=
  (keep1 (W2 m ρ c) main_v19 (by decide)).trans (W2_v19 m ρ c)

theorem W3_arg3 (c : Dev nD) :
    W3 m ρ c (Proc.devRef .tc main_arg3) = m ((c : Thread nD τ).loc main_arg3) :=
  (keep1 (W2 m ρ c) main_arg3 (by decide)).trans (W2_arg3 m ρ c)

theorem W3_arg4 (c : Dev nD) :
    W3 m ρ c (Proc.devRef .tc main_arg4) = m ((c : Thread nD τ).loc main_arg4) :=
  (keep1 (W2 m ρ c) main_arg4 (by decide)).trans (W2_arg4 m ρ c)

theorem W3_arg5 (c : Dev nD) :
    W3 m ρ c (Proc.devRef .tc main_arg5) = m ((c : Thread nD τ).loc main_arg5) :=
  (keep1 (W2 m ρ c) main_arg5 (by decide)).trans (W2_arg5 m ρ c)

theorem W3_arg6 (c : Dev nD) :
    W3 m ρ c (Proc.devRef .tc main_arg6) = m ((c : Thread nD τ).loc main_arg6) :=
  (keep1 (W2 m ρ c) main_arg6 (by decide)).trans (W2_arg6 m ρ c)

theorem W3_arg7 (c : Dev nD) :
    W3 m ρ c (Proc.devRef .tc main_arg7) = m ((c : Thread nD τ).loc main_arg7) :=
  (keep1 (W2 m ρ c) main_arg7 (by decide)).trans (W2_arg7 m ρ c)

theorem W3_arg8 (c : Dev nD) :
    W3 m ρ c (Proc.devRef .tc main_arg8) = m ((c : Thread nD τ).loc main_arg8) :=
  (keep1 (W2 m ρ c) main_arg8 (by decide)).trans (W2_arg8 m ρ c)

theorem W3_arg9 (c : Dev nD) :
    W3 m ρ c (Proc.devRef .tc main_arg9) = m ((c : Thread nD τ).loc main_arg9) :=
  (keep1 (W2 m ρ c) main_arg9 (by decide)).trans (W2_arg9 m ρ c)

theorem W3_arg10 (c : Dev nD) :
    W3 m ρ c (Proc.devRef .tc main_arg10) = m ((c : Thread nD τ).loc main_arg10) :=
  (keep1 (W2 m ρ c) main_arg10 (by decide)).trans (W2_arg10 m ρ c)

/-! ## After the second region: the hidden layer -/

theorem W4_v31 (c : Dev nD) :
    W4 m ρ c (Proc.devRef .tc main_v31) = hidden m c :=
  (W4_arr m ρ c 9).trans ((Regions.final1 (V3 m ρ) c).trans (by
    rw [show V3 m ρ c main_v30 = _ from W3_v30 m ρ c,
      show V3 m ρ c main_v19 = _ from W3_v19 m ρ c,
      show V3 m ρ c main_v16 = _ from W3_v16 m ρ c,
      show V3 m ρ c main_arg3 = _ from W3_arg3 m ρ c,
      show V3 m ρ c main_arg4 = _ from W3_arg4 m ρ c,
      show V3 m ρ c main_arg7 = _ from W3_arg7 m ρ c,
      show V3 m ρ c main_arg8 = _ from W3_arg8 m ρ c,
      show V3 m ρ c main_arg9 = _ from W3_arg9 m ρ c,
      show V3 m ρ c main_arg10 = _ from W3_arg10 m ρ c]))

theorem W4_v19 (c : Dev nD) :
    W4 m ρ c (Proc.devRef .tc main_v19) = Cert.Spec.degScale (F := Ideal) (m ((c : Thread nD τ).loc main_arg2)) :=
  (W4_arr m ρ c 1).trans (((dat1 (V3 m ρ) c).arrAt_in 1 rfl _).trans
    ((A_eq1 (V3 m ρ) c 1).trans (W3_v19 m ρ c)))

theorem W4_v1 (c : Dev nD) :
    W4 m ρ c (Proc.devRef .tc main_v1) = Cert.Spec.withLoops (F := Ideal) (m ((c : Thread nD τ).loc main_arg1)) :=
  (W4_of_ne m ρ c main_v1 (by decide)).trans (W3_v1 m ρ c)

theorem W4_v2 (c : Dev nD) :
    W4 m ρ c (Proc.devRef .tc main_v2) = Cert.Spec.withLoops (F := Ideal) (m ((c : Thread nD τ).loc main_arg2)) :=
  (W4_of_ne m ρ c main_v2 (by decide)).trans (W3_v2 m ρ c)

theorem W4_arg5 (c : Dev nD) :
    W4 m ρ c (Proc.devRef .tc main_arg5) = m ((c : Thread nD τ).loc main_arg5) :=
  (W4_of_ne m ρ c main_arg5 (by decide)).trans (W3_arg5 m ρ c)

theorem W4_arg6 (c : Dev nD) :
    W4 m ρ c (Proc.devRef .tc main_arg6) = m ((c : Thread nD τ).loc main_arg6) :=
  (W4_of_ne m ρ c main_arg6 (by decide)).trans (W3_arg6 m ρ c)

/-! ## After the third stretch (the third region's entry): the second aggregation -/

theorem W5_v41 (c : Dev nD) :
    W5 m ρ c (Proc.devRef .tc main_v41) = aggregatedHidden m c :=
  (hostOps2_v41 (W4 m ρ c)).trans (by rw [W4_v1 m ρ c, W4_v2 m ρ c, W4_v31 m ρ c]; rfl)

theorem W5_v19 (c : Dev nD) :
    W5 m ρ c (Proc.devRef .tc main_v19) = Cert.Spec.degScale (F := Ideal) (m ((c : Thread nD τ).loc main_arg2)) :=
  (keep2 (W4 m ρ c) main_v19 (by decide)).trans (W4_v19 m ρ c)

theorem W5_arg5 (c : Dev nD) :
    W5 m ρ c (Proc.devRef .tc main_arg5) = m ((c : Thread nD τ).loc main_arg5) :=
  (keep2 (W4 m ρ c) main_arg5 (by decide)).trans (W4_arg5 m ρ c)

theorem W5_arg6 (c : Dev nD) :
    W5 m ρ c (Proc.devRef .tc main_arg6) = m ((c : Thread nD τ).loc main_arg6) :=
  (keep2 (W4 m ρ c) main_arg6 (by decide)).trans (W4_arg6 m ρ c)

/-! ## After the third region: the result -/

/-- What the result buffer holds when the program returns: the forward pass of the eleven launch arrays. -/
theorem result_eq (c : Dev nD) :
    W6 m ρ c (Proc.devRef .tc main_v42)
      = Cert.Spec.forwardSpec (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (W6_arr m ρ c 4).trans ((Regions.final2 (V5 m ρ) c).trans (by
    rw [show V5 m ρ c main_v41 = _ from W5_v41 m ρ c,
      show V5 m ρ c main_v19 = _ from W5_v19 m ρ c,
      show V5 m ρ c main_arg5 = _ from W5_arg5 m ρ c,
      show V5 m ρ c main_arg6 = _ from W5_arg6 m ρ c]
    rfl))

end Cert.KernelIdeal.Whole

end
-- ==== Proof.WholeRun.lean ====
/-
  The kernel's run, with its result as a function of the launch arrays.

  The run of the program leaves the result buffer at the last segment boundary's contents, and those contents are
  the specification's forward pass of the eleven launch arrays; together: the kernel computes the forward pass.
-/
import proofs.«148521_j38173669327120_1_alg».proof.Proof.KernelRun
import proofs.«148521_j38173669327120_1_alg».proof.Proof.Boundaries

set_option maxRecDepth 16384

noncomputable section

open Idealize.ShloMosaic Idealize.ShloMosaic.TcCoe Idealize.SL.Sem

namespace Cert.KernelIdeal.Whole

open Cert.KernelIdeal Cert.KernelIdeal.Gen

/-- THE KERNEL'S RUN: every execution terminates without fault; in every final state the result buffer holds the forward
    pass of the eleven arrays the program was launched with, and those eleven arrays are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = Cert.Spec.forwardSpec (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.Whole

end
-- ==== Proof.lean ====
/-
  The certificate of a two-layer graph convolution: the kernel (degree factors and neighbour aggregation on the
  host, three row-blocked regions for the row-wise layers) against its plain reference.

  Both programs compute, on the extended reals, the one function `Cert.Spec.forwardSpec` of the eleven inputs:
    * the reference because its operations, composed, are that function term for term (`Cert.RefSide.result_eq`);
    * the kernel because each region leaves, in its output array, the corresponding layer of the arrays it found
      (`Cert.KernelIdeal.Regions.final0/1/2`: a block of 4000 rows per grid point, 25 blocks tiling the array; inside a
      block a change of float format is the identity, the matrix unit's product into a zero accumulator and the host's
      dot product are the same finite sum, the two reciprocal square roots are one function), and the host stretches
      between the regions are the reference's own operations on those arrays (`Cert.KernelIdeal.Whole.run`).
  No rearrangement of a sum or product separates the two sides, so the inputs' finiteness is never used.
  The three frames are the generated runs; the ideal pass rewrote nothing, so `preserves` asks nothing.
-/
import proofs.«148521_j38173669327120_1_alg».proof.Defs
import proofs.«148521_j38173669327120_1_alg».proof.Proof.Gen.Kernel
import proofs.«148521_j38173669327120_1_alg».proof.Proof.Gen.Kernel.Skeleton
import proofs.«148521_j38173669327120_1_alg».proof.Proof.Gen.Kernel.Launch
import proofs.«148521_j38173669327120_1_alg».proof.Proof.Gen.Kernel.Points
import proofs.«148521_j38173669327120_1_alg».proof.Proof.Gen.Kernel.Frame
import proofs.«148521_j38173669327120_1_alg».proof.Proof.Gen.KernelIdeal
import proofs.«148521_j38173669327120_1_alg».proof.Proof.Gen.KernelIdeal.Skeleton
import proofs.«148521_j38173669327120_1_alg».proof.Proof.Gen.KernelIdeal.Launch
import proofs.«148521_j38173669327120_1_alg».proof.Proof.Gen.KernelIdeal.Points
import proofs.«148521_j38173669327120_1_alg».proof.Proof.Gen.KernelIdeal.Frame
import proofs.«148521_j38173669327120_1_alg».proof.Proof.Gen.ReferenceIdeal
import proofs.«148521_j38173669327120_1_alg».proof.Proof.Gen.ReferenceIdeal.Run
import proofs.«148521_j38173669327120_1_alg».proof.Proof.Gen.Pre_finite_inputs
import proofs.«148521_j38173669327120_1_alg».proof.Proof.RefSide
import proofs.«148521_j38173669327120_1_alg».proof.Proof.WholeRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the inputs, both programs end with `forwardSpec` of those inputs in their result. -/
theorem algebraic : Cert.algebraic_KernelIdeal_ReferenceIdeal := by
  intro m ρ m' ρ' _ hagree
  refine ⟨fun c => Cert.Spec.forwardSpec (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.RefSide.result_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
